-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1600000 : Shape := ⟨1, ![1600000]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S1600000 .f32) (main_arg2 : FVec F S4096 .f32) (main_arg3 : IVec S1600000 32) (main_arg4 : IVec S1600000 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S1600000 : Shape := ⟨1, ![1600000]⟩
abbrev S4096 : Shape := ⟨1, ![4096]⟩
abbrev S_ : Shape := ⟨0, ![]⟩
abbrev S1600000x1 : Shape := ⟨2, ![1600000, 1]⟩
abbrev S1600000x2 : Shape := ⟨2, ![1600000, 2]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 27
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S1600000, .f32⟩
  | .hbm, ⟨2, _⟩ => ⟨S4096, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S1x4096, .f32⟩
  | .hbm, ⟨26, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1600000x2_S1600000_n_01_01_1_wf : ScatterDims.WF S4096x4096 S1600000x2 S1600000 [] [0, 1] [0, 1] 1
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S1600000 : Shape := ⟨1, ![1600000]⟩
abbrev S4096 : Shape := ⟨1, ![4096]⟩
abbrev S_ : Shape := ⟨0, ![]⟩
abbrev S1600000x1 : Shape := ⟨2, ![1600000, 1]⟩
abbrev S1600000x2 : Shape := ⟨2, ![1600000, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1600000, .f32⟩
  | .hbm, ⟨2, _⟩ => ⟨S4096, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .i32⟩
  | .hbm, ⟨23, _⟩ => ⟨S1600000x2, .i32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S1x4096, .f32⟩
  | .hbm, ⟨28, _⟩ => ⟨S4096x4096, .f32⟩
  | .hbm, ⟨29, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S4096x4096_S1600000x2_S1600000_n_01_01_1_wf : ScatterDims.WF S4096x4096 S1600000x2 S1600000 [] [0, 1] [0, 1] 1
  dot_S4096x4096_S4096x4096_S4096x4096_1_0_0_1_n_n_wf : DotDims.WF S4096x4096 S4096x4096 S4096x4096 [1] [0] [0] [1] [] []

variable [Facts₀]

def scatter_S4096x4096_S1600000x2_S1600000_n_01_01_1 : ScatterDims S4096x4096 S1600000x2 S1600000 where
  updateWindowDims := []
  insertedWindowDims := [0, 1]
  scatterDimsToOperandDims := [0, 1]
  indexVectorDim := 1
  wf := scatter_S4096x4096_S1600000x2_S1600000_n_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KernelPieces.lean ====
/-
  What one grid step leaves behind, as pure functions of what it loaded.

  The body keeps a 1024×1024 accumulator in a scratch buffer that lives across the eight steps of the
  contraction axis.  A step first (only when it is the first of the eight) overwrites the accumulator with
  zeros, then reads an x-tile `a` (1024×512), a weight tile `b` (512×1024) and the accumulator `acc`, and
  stores back `acc + a·b`; the last of the eight steps then also stores `acc' + bias` into the output
  tile.  The lemmas below say exactly that, for the three kinds of step:

    first step   : accumulator := 0 + a·b              (the zero block is read back before the product is added)
    middle step  : accumulator := acc + a·b
    last step    : accumulator := acc + a·b,   output tile := (acc + a·b) + bias

  each written with the body's own arithmetic terms (`k0_pay1` the zero block, `k0_pay2` "add the tile
  product", `k0_pay3` "add the bias row"), at any float instance.
-/
import proofs.«145522_j86208583565592_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A middle step leaves `acc + a·b` in the accumulator: its one store covers the buffer, and its three
    loads read the whole x-tile, the whole weight tile and the whole accumulator. -/
theorem scratch_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S512x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg5.read_unread, harg6.read_unread, harg7.read_unread, View.ld_unit_zero (S := S1024x512) hz, View.ld_unit_zero (S := S512x1024) hz, View.ld_unit_zero (S := S1024x1024) hz, View.ld_unit_zero (S := S1x1024) hz]

/-- The last step leaves the same `acc + a·b` in the accumulator … -/
theorem scratch_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg6.read_unread, harg7.read_unread, View.ld_unit_zero (S := S1024x512) hz, View.ld_unit_zero (S := S512x1024) hz, View.ld_unit_zero (S := S1024x1024) hz, View.ld_unit_zero (S := S1x1024) hz]

/-- … and puts that accumulator, read back, plus the bias row into the output tile. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S512x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg6.read_unread, harg7.read_unread, View.ld_unit_zero (S := S1024x512) hz, View.ld_unit_zero (S := S512x1024) hz, View.ld_unit_zero (S := S1024x1024) hz, View.ld_unit_zero (S := S1x1024) hz]

/-- The first step stores the zero block, reads it back, and leaves `0 + a·b`: what the accumulator held
    before does not enter. -/
theorem scratch_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S512x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, View.ld_unit_zero (S := S1024x512) hz, View.ld_unit_zero (S := S512x1024) hz, View.ld_unit_zero (S := S1024x1024) hz, View.ld_unit_zero (S := S1x1024) hz]

end Cert.KernelIdeal.Pieces

end
-- ==== Proof.KernelPayload.lean ====
/-
  One grid step's arithmetic, read at one element, over the extended reals.

  At the ideal instance the two narrowings to bf16 are the identity, the matrix unit's product into a zero
  accumulator is the plain sum of products over the 512 contracted positions, and the bias row is broadcast
  down the 1024 rows.  So, at position (p, q) of the 1024×1024 tile, with `a` the x-tile, `b` the weight tile,
  `acc` the accumulator and `r` the 1×1024 bias block:

      zero block        :  0
      add the product   :  acc(p, q) + Σ_{l<512} a(p, l) · b(l, q)
      add the bias row  :  v(p, q) + r(0, q)

  and hence what each kind of step leaves (first / middle / last of the eight), element by element.
-/
import proofs.«145522_j86208583565592_2_alg».proof.Proof.KernelPieces
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- Where the matrix product reads its operands: output (i₀, i₁) and contracted position k read the left
    operand at (i₀, k) … -/
theorem lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- … and the right operand at (k, i₁). -/
theorem rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The zero block is zero everywhere. -/
theorem pay1_apply (y : S1024x1024.Idx) : k0_pay1 (F := Ideal) y = 0 := by
  unfold k0_pay1
  simp only [shapeCast_self]
  show Ideal.ofBits .f32 0x00000000#32 = 0
  exact Ideal.ofBits_zero_f32

/-- "Add the tile product" at (p, q): the accumulator there plus the 512 products of row p of the x-tile with
    column q of the weight tile. -/
theorem pay2_apply (a : Vec Ideal S1024x512 .f32) (b : Vec Ideal S512x1024 .f32) (acc : Vec Ideal S1024x1024 .f32)
    (p q : Fin 1024) :
    k0_pay2 (F := Ideal) a b acc (ix2 p q) = acc (ix2 p q) + ∑ l : Fin 512, a (ix2 p l) * b (ix2 l q) := by
  unfold k0_pay2
  simp only [shapeCast_self]
  rw [addf_apply]
  simp only [matmul]
  rw [Ideal.matmul_constant_zero_apply, ← Equiv.sum_comp (contrEquiv1 dot_S1024x512_S512x1024_S1024x1024_1_0_0_1_n_n 512 rfl rfl).symm]
  refine congrArg (acc (ix2 p q) + ·) (Finset.sum_congr rfl fun l _ => ?_)
  have hk := contrEquiv1_symm_val dot_S1024x512_S512x1024_S1024x1024_1_0_0_1_n_n 512 rfl rfl l
  have el : dot_S1024x512_S512x1024_S1024x1024_1_0_0_1_n_n.lhsIdx (ix2 p q) ((contrEquiv1 dot_S1024x512_S512x1024_S1024x1024_1_0_0_1_n_n 512 rfl rfl).symm l) = ix2 p l := funext fun a => Fin.ext (by
    match a with
    | ⟨0, _⟩ => exact lhs_0 _ _
    | ⟨1, _⟩ => exact (lhs_1 _ _).trans hk)
  have er : dot_S1024x512_S512x1024_S1024x1024_1_0_0_1_n_n.rhsIdx (ix2 p q) ((contrEquiv1 dot_S1024x512_S512x1024_S1024x1024_1_0_0_1_n_n 512 rfl rfl).symm l) = ix2 l q := funext fun a => Fin.ext (by
    match a with
    | ⟨0, _⟩ => exact (rhs_0 _ _).trans hk
    | ⟨1, _⟩ => exact rhs_1 _ _)
  rw [el, er]
  rfl

/-- "Add the bias row" at (p, q): the value there plus entry q of the one-row bias block. -/
theorem pay3_apply (v : Vec Ideal S1024x1024 .f32) (r : Vec Ideal S1x1024 .f32) (p q : Fin 1024) :
    k0_pay3 (F := Ideal) v r (ix2 p q) = v (ix2 p q) + r (ix2 (0 : Fin 1) q) := by
  unfold k0_pay3
  simp only [shapeCast_self]
  rw [addf_apply]
  refine congrArg (v (ix2 p q) + ·) ?_
  exact broadcastTo_apply r broadcasts_S1x1024_S1024x1024 (ix2 p q) (ix2 (0 : Fin 1) q) (fun a => match a with
    | ⟨0, _⟩ => by show (0 : ℕ) = if (1 : Nat) = 1 then 0 else q.val; rw [if_pos rfl]
    | ⟨1, _⟩ => by show q.val = if (1024 : Nat) = 1 then 0 else q.val; rw [if_neg (by decide)])

/-- The first of the eight steps leaves `0 + Σ_l a(p, l) · b(l, q)` in the accumulator. -/
theorem first_apply (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec Ideal S1024x512 .f32) (x1 : Vec Ideal S512x1024 .f32) (x2 : Vec Ideal S1x1024 .f32) (p q : Fin 1024) :
    sout0_A_0 (F := Ideal) c i arg3 harg3 arg4 harg4 arg5 harg5 arg6 harg6 arg7 harg7 hc0 hc1 x0 x1 x2 (ix2 p q) = 0 + ∑ l : Fin 512, x0 (ix2 p l) * x1 (ix2 l q) := by
  rw [Pieces.scratch_A (F := Ideal) c i arg3 harg3 arg4 harg4 arg5 harg5 arg6 harg6 arg7 harg7 hc0 hc1 x0 x1 x2, pay2_apply, pay1_apply]

/-- A middle step adds its 512 products to what the accumulator held. -/
theorem middle_apply (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec Ideal S1024x512 .f32) (x1 : Vec Ideal S512x1024 .f32) (x2 : Vec Ideal S1x1024 .f32)
    (xs0 : Vec Ideal S1024x1024 .f32) (p q : Fin 1024) :
    sout0_B_0 (F := Ideal) c i arg3 harg3 arg4 harg4 arg5 harg5 arg6 harg6 arg7 harg7 hc0 hc1 x0 x1 x2 xs0 (ix2 p q) = xs0 (ix2 p q) + ∑ l : Fin 512, x0 (ix2 p l) * x1 (ix2 l q) := by
  rw [Pieces.scratch_B (F := Ideal) c i arg3 harg3 arg4 harg4 arg5 harg5 arg6 harg6 arg7 harg7 hc0 hc1 x0 x1 x2 xs0, pay2_apply]

/-- So does the last step … -/
theorem last_apply (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec Ideal S1024x512 .f32) (x1 : Vec Ideal S512x1024 .f32) (x2 : Vec Ideal S1x1024 .f32)
    (xs0 : Vec Ideal S1024x1024 .f32) (p q : Fin 1024) :
    sout0_C_0 (F := Ideal) c i arg3 harg3 arg4 harg4 arg5 harg5 arg6 harg6 arg7 harg7 hc0 hc1 x0 x1 x2 xs0 (ix2 p q) = xs0 (ix2 p q) + ∑ l : Fin 512, x0 (ix2 p l) * x1 (ix2 l q) := by
  rw [Pieces.scratch_C (F := Ideal) c i arg3 harg3 arg4 harg4 arg5 harg5 arg6 harg6 arg7 harg7 hc0 hc1 x0 x1 x2 xs0, pay2_apply]

/-- … and its output tile is the accumulator it leaves plus the bias entry of the column. -/
theorem out_apply (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec Ideal S1024x512 .f32) (x1 : Vec Ideal S512x1024 .f32) (x2 : Vec Ideal S1x1024 .f32)
    (xs0 : Vec Ideal S1024x1024 .f32) (p q : Fin 1024) :
    out0_C_3 (F := Ideal) c i arg3 harg3 arg4 harg4 arg5 harg5 arg6 harg6 arg7 harg7 hc0 hc1 x0 x1 x2 xs0 (ix2 p q)
      = sout0_C_0 (F := Ideal) c i arg3 harg3 arg4 harg4 arg5 harg5 arg6 harg6 arg7 harg7 hc0 hc1 x0 x1 x2 xs0 (ix2 p q) + x2 (ix2 (0 : Fin 1) q) := by
  rw [Pieces.out_C (F := Ideal) c i arg3 harg3 arg4 harg4 arg5 harg5 arg6 harg6 arg7 harg7 hc0 hc1 x0 x1 x2 xs0, Pieces.scratch_C (F := Ideal) c i arg3 harg3 arg4 harg4 arg5 harg5 arg6 harg6 arg7 harg7 hc0 hc1 x0 x1 x2 xs0, pay3_apply]

end Cert.KernelIdeal.Payload

end
-- ==== Proof.Spec.lean ====
/-
  The dense layer both programs compute, and the one law about sums the comparison needs.

  With X the 4096×4096 input, W a 4096×4096 weight matrix laid out [input feature, output feature] and b the bias
  row, the layer's output is

      Y(i, j) = Σ_k X(i, k) · W(k, j) + b(j)                                   (`dense`).

  The tiled kernel forms the sum over k in eight slabs of 512, slab s contributing
  Σ_{l<512} X(i, 512 s + l) · W(512 s + l, j) (`tile`, written for the (r, c) output tile and a position (p, q)
  inside it, so that i = 1024 r + p and j = 1024 c + q).  Over the extended reals addition is commutative and
  associative, so the eight slab sums add up to the whole sum (`sum_blocks`, `sum_tiles`): the index k ↦
  (k / 512, k % 512) is a bijection of 4096 onto 8 × 512.  No finiteness is needed: no factor is moved across a
  sum and nothing is cancelled.
-/
import Idealize.ShloMosaic.PureOps.Ideal
import Idealize.ShloMosaic.Lib.ValueIdx

noncomputable section

open scoped BigOperators
open Idealize.ShloMosaic Idealize.ShloMosaic.ValueIdx

namespace Cert.Spec

/-- A 4096×4096 array read at two natural numbers; zero outside the array (never consulted there: it lets a
    tile's position be written with plain arithmetic). -/
def at2 (X : (⟨2, ![4096, 4096]⟩ : Shape).Idx → EReal) (a b : ℕ) : EReal :=
  if h : a < 4096 ∧ b < 4096 then X (ix2 ⟨a, h.1⟩ ⟨b, h.2⟩) else 0

/-- Inside the array it is the array. -/
theorem at2_of_lt (X : (⟨2, ![4096, 4096]⟩ : Shape).Idx → EReal) (a b : ℕ) (ha : a < 4096) (hb : b < 4096) :
    at2 X a b = X (ix2 ⟨a, ha⟩ ⟨b, hb⟩) := by
  unfold at2
  rw [dif_pos ⟨ha, hb⟩]

/-- Eight consecutive slabs of 512 terms are the 4096 terms: k = 512 s + l with s < 8, l < 512, each k once. -/
theorem sum_blocks {M : Type*} [AddCommMonoid M] (f : ℕ → M) :
    ∑ s ∈ Finset.range 8, ∑ l : Fin 512, f (512 * s + l.val) = ∑ k : Fin 4096, f k.val := by
  rw [← Fin.sum_univ_eq_sum_range (fun s => ∑ l : Fin 512, f (512 * s + l.val)) 8]
  rw [← Fintype.sum_prod_type' (f := fun (s : Fin 8) (l : Fin 512) => f (512 * s.val + l.val))]
  rw [← Equiv.sum_comp (finProdFinEquiv (m := 8) (n := 512)) (fun k : Fin 4096 => f k.val)]
  refine Finset.sum_congr rfl fun x _ => ?_
  show f (512 * x.1.val + x.2.val) = f (x.2.val + 512 * x.1.val)
  rw [Nat.add_comm]

/-- The dense layer: row `i 0` of X against column `i 1` of W, plus the bias of that column. -/
def dense (X W : (⟨2, ![4096, 4096]⟩ : Shape).Idx → EReal) (bias : (⟨1, ![4096]⟩ : Shape).Idx → EReal) :
    (⟨2, ![4096, 4096]⟩ : Shape).Idx → EReal :=
  fun i => (∑ k : Fin 4096, X (ix2 (i 0) k) * W (ix2 k (i 1))) + bias (ix1 (i 1))

/-- Slab `s` of the contraction for output tile (r, cl) at the position (p, q) inside the tile: the product of
    x-tile (r, s) and weight tile (s, cl) there. -/
def tile (X W : (⟨2, ![4096, 4096]⟩ : Shape).Idx → EReal) (r s cl p q : ℕ) : EReal :=
  ∑ l : Fin 512, at2 X (1024 * r + p) (512 * s + l.val) * at2 W (512 * s + l.val) (1024 * cl + q)

/-- The eight slabs of an output element add up to its whole inner product. -/
theorem sum_tiles (X W : (⟨2, ![4096, 4096]⟩ : Shape).Idx → EReal) (r cl p q : ℕ)
    (hr : 1024 * r + p < 4096) (hc : 1024 * cl + q < 4096) :
    ∑ s ∈ Finset.range 8, tile X W r s cl p q
      = ∑ k : Fin 4096, X (ix2 ⟨1024 * r + p, hr⟩ k) * W (ix2 k ⟨1024 * cl + q, hc⟩) := by
  unfold tile
  rw [sum_blocks (fun k => at2 X (1024 * r + p) k * at2 W k (1024 * cl + q))]
  refine Finset.sum_congr rfl fun k _ => ?_
  rw [at2_of_lt X _ _ hr k.isLt, at2_of_lt W _ _ k.isLt hc]

end Cert.Spec

end
-- ==== Proof.KernelBlocks.lean ====
/-
  From tiles to the whole result: what the tiled matmul leaves in the output array, over the extended reals.

  The grid is 4 × 4 × 8: point t = 32·i + 8·j + k works on output tile (i, j) and slab k of the contraction.
  At point t the call stages
      x-tile      X[1024 i .. , 512 k ..]        (1024×512)
      weight tile W[512 k .. , 1024 j ..]        (512×1024)
      bias block  b[0, 1024 j ..]                (1×1024)
  and, after the last slab (k = 7) only, writes the output tile (i, j) back.

  Read element by element (`iblk0_apply` … `iblk2_apply`: a block's element sits at block index × block size +
  its position), a step adds to the accumulator at (p, q) the slab sum
      Σ_{l<512} X(1024 i + p, 512 k + l) · W(512 k + l, 1024 j + q)               (`addend`, `block_sum`),
  the first step of a run of eight starting from zero (`reset_apply`, `step_apply`).  So after the last step the
  accumulator holds 0 + the eight slab sums (`acc_apply`, the fold of a run unrolled as a sum over
  `Finset.range`), which is the whole inner product Σ_k X(i', k) · W(k, j') (`Spec.sum_tiles`), and the tile
  written back is that plus b(j') (`out_tile`, `tile_value`).  Every element of the 4096×4096 output lies in
  exactly the tile (i'/1024, j'/1024), written back at point 32·(i'/1024) + 8·(j'/1024) + 7 (`cover`), so the array
  ends as `Spec.dense X W b` (`final`).

  The arrays X, W, b are whatever the host operations before the call left (`arrX`, `arrW`, `arrB`); they stay
  opaque here.
-/
import proofs.«145522_j86208583565592_2_alg».proof.Proof.KernelPayload
import proofs.«145522_j86208583565592_2_alg».proof.Proof.Spec
import proofs.«145522_j86208583565592_2_alg».proof.Proof.Gen.KernelIdeal.Value
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable (m : (ℓ : Loc nD τ sig) → Buf (Elt Ideal) ℓ)

/-- The index maps of the four windows in closed form, decided over the 128 grid points: point t is
    (i, j, k) = (t / 32, t / 8 % 4, t % 8). -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The three arrays the grid reads, as the call finds them: x, the weight matrix in [in, out] layout, and the
    bias as a 1×4096 row. -/
def arrX (c : Dev nD) : S4096x4096.Idx → EReal := V m c (Pipeline.arrRef spec0 0)
def arrW (c : Dev nD) : S4096x4096.Idx → EReal := V m c (Pipeline.arrRef spec0 1)
def arrB (c : Dev nD) : S1x4096.Idx → EReal := V m c (Pipeline.arrRef spec0 2)

/-- Element (p, l) of the x-tile at point t is X(1024·(t/32) + p, 512·(t%8) + l). -/
theorem iblk0_apply (c : Dev nD) (t : Fin cfg0.N) (p : Fin 1024) (l : Fin 512)
    (h0 : 1024 * (t.val / 32) + p.val < 4096) (h1 : 512 * (t.val % 8) + l.val < 4096) :
    (iblk m c 0 t : Vec Ideal S1024x512 .f32) (ix2 p l)
      = arrX m c (ix2 ⟨1024 * (t.val / 32) + p.val, h0⟩ ⟨512 * (t.val % 8) + l.val, h1⟩) := by
  obtain ⟨e0, e1, -⟩ := idx_facts t
  have h : ((cfg0.win 0).blk t).view.emb (ix2 p l)
      = ix2 ⟨1024 * (t.val / 32) + p.val, h0⟩ ⟨512 * (t.val % 8) + l.val, h1⟩ := by
    funext a; apply Fin.ext
    match a with
    | ⟨0, _⟩ => show win0_0.index t (0 : Fin 2) * 1024 + 1 * p.val = 1024 * (t.val / 32) + p.val; rw [e0]; omega
    | ⟨1, _⟩ => show win0_0.index t (1 : Fin 2) * 512 + 1 * l.val = 512 * (t.val % 8) + l.val; rw [e1]; omega
  unfold iblk arrX
  rw [View.read_apply, h]
  exact cast_eq _ _

/-- Element (l, q) of the weight tile at point t is W(512·(t%8) + l, 1024·(t/8%4) + q). -/
theorem iblk1_apply (c : Dev nD) (t : Fin cfg0.N) (l : Fin 512) (q : Fin 1024)
    (h0 : 512 * (t.val % 8) + l.val < 4096) (h1 : 1024 * (t.val / 8 % 4) + q.val < 4096) :
    (iblk m c 1 t : Vec Ideal S512x1024 .f32) (ix2 l q)
      = arrW m c (ix2 ⟨512 * (t.val % 8) + l.val, h0⟩ ⟨1024 * (t.val / 8 % 4) + q.val, h1⟩) := by
  obtain ⟨-, -, e0, e1, -⟩ := idx_facts t
  have h : ((cfg0.win 1).blk t).view.emb (ix2 l q)
      = ix2 ⟨512 * (t.val % 8) + l.val, h0⟩ ⟨1024 * (t.val / 8 % 4) + q.val, h1⟩ := by
    funext a; apply Fin.ext
    match a with
    | ⟨0, _⟩ => show win0_1.index t (0 : Fin 2) * 512 + 1 * l.val = 512 * (t.val % 8) + l.val; rw [e0]; omega
    | ⟨1, _⟩ => show win0_1.index t (1 : Fin 2) * 1024 + 1 * q.val = 1024 * (t.val / 8 % 4) + q.val; rw [e1]; omega
  unfold iblk arrW
  rw [View.read_apply, h]
  exact cast_eq _ _

/-- Entry q of the bias block at point t is entry 1024·(t/8%4) + q of the bias row. -/
theorem iblk2_apply (c : Dev nD) (t : Fin cfg0.N) (q : Fin 1024) (h1 : 1024 * (t.val / 8 % 4) + q.val < 4096) :
    (iblk m c 2 t : Vec Ideal S1x1024 .f32) (ix2 (0 : Fin 1) q)
      = arrB m c (ix2 (0 : Fin 1) ⟨1024 * (t.val / 8 % 4) + q.val, h1⟩) := by
  obtain ⟨-, -, -, -, e0, e1, -⟩ := idx_facts t
  have h : ((cfg0.win 2).blk t).view.emb (ix2 (0 : Fin 1) q)
      = ix2 (0 : Fin 1) ⟨1024 * (t.val / 8 % 4) + q.val, h1⟩ := by
    funext a; apply Fin.ext
    match a with
    | ⟨0, _⟩ => show win0_2.index t (0 : Fin 2) * 1 + 1 * 0 = 0; rw [e0]
    | ⟨1, _⟩ => show win0_2.index t (1 : Fin 2) * 1024 + 1 * q.val = 1024 * (t.val / 8 % 4) + q.val; rw [e1]; omega
  unfold iblk arrB
  rw [View.read_apply, h]
  exact cast_eq _ _

/-- What point n adds to the accumulator at y: slab n%8 of the inner product for output tile (n/32, n/8%4). -/
def addend (c : Dev nD) (n : ℕ) (y : S1024x1024.Idx) : EReal :=
  tile (arrX m c) (arrW m c) (n / 32) (n % 8) (n / 8 % 4) (y 0).val (y 1).val

/-- The 512 products of row p of the x-tile with column q of the weight tile at point t are that point's slab. -/
theorem block_sum (c : Dev nD) (t : Fin cfg0.N) (p q : Fin 1024)
    (x0 : Vec Ideal S1024x512 .f32) (x1 : Vec Ideal S512x1024 .f32) (hx0 : x0 = iblk m c 0 t) (hx1 : x1 = iblk m c 1 t) :
    ∑ l : Fin 512, x0 (ix2 p l) * x1 (ix2 l q) = addend m c t.val (ix2 p q) := by
  have hN : t.val < 128 := lt_of_lt_of_eq t.isLt N_0
  subst hx0 hx1
  unfold addend tile
  refine Finset.sum_congr rfl fun l _ => ?_
  have a0 : 1024 * (t.val / 32) + p.val < 4096 := by omega
  have a1 : 512 * (t.val % 8) + l.val < 4096 := by omega
  have a2 : 1024 * (t.val / 8 % 4) + q.val < 4096 := by omega
  show _ = at2 (arrX m c) (1024 * (t.val / 32) + p.val) (512 * (t.val % 8) + l.val)
    * at2 (arrW m c) (512 * (t.val % 8) + l.val) (1024 * (t.val / 8 % 4) + q.val)
  rw [at2_of_lt _ _ _ a0 a1, at2_of_lt _ _ _ a1 a2]
  exact congrArg₂ (· * ·) (iblk0_apply m c t p l a0 a1) (iblk1_apply m c t l q a1 a2)

/-- At the first point of a run of eight (t % 8 = 0) the accumulator is set to 0 + the point's slab, whatever it
    held. -/
theorem reset_apply (c : Dev nD) (n : ℕ) (hb : n < cfg0.N) (h0 : n % 8 = 0) (acc : Vec Ideal S1024x1024 .f32) (p q : Fin 1024) :
    Value.scAt0_0 m c n hb acc (ix2 p q) = 0 + addend m c n (ix2 p q) := by
  have h1 : ¬n % 8 = 7 := by omega
  unfold Value.scAt0_0
  rw [dif_pos h0, dif_neg h1]
  refine (Payload.first_apply c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) p q).trans ?_
  exact congrArg (0 + ·) (block_sum m c ⟨n, hb⟩ p q (iblk m c 0 ⟨n, hb⟩) (iblk m c 1 ⟨n, hb⟩) rfl rfl)

/-- At every other point the point's slab is added to what the accumulator held. -/
theorem step_apply (c : Dev nD) (n : ℕ) (hb : n < cfg0.N) (h0 : ¬n % 8 = 0) (acc : Vec Ideal S1024x1024 .f32) (p q : Fin 1024) :
    Value.scAt0_0 m c n hb acc (ix2 p q) = acc (ix2 p q) + addend m c n (ix2 p q) := by
  unfold Value.scAt0_0
  rw [dif_neg h0]
  by_cases h1 : n % 8 = 7
  · rw [dif_pos h1]
    refine (Payload.last_apply c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc p q).trans ?_
    exact congrArg (acc (ix2 p q) + ·) (block_sum m c ⟨n, hb⟩ p q (iblk m c 0 ⟨n, hb⟩) (iblk m c 1 ⟨n, hb⟩) rfl rfl)
  · rw [dif_neg h1]
    refine (Payload.middle_apply c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) acc p q).trans ?_
    exact congrArg (acc (ix2 p q) + ·) (block_sum m c ⟨n, hb⟩ p q (iblk m c 0 ⟨n, hb⟩) (iblk m c 1 ⟨n, hb⟩) rfl rfl)

/-- After point t the accumulator holds zero plus the slabs of the points of t's run up to t. -/
theorem acc_apply (c : Dev nD) (t : Fin cfg0.N) (p q : Fin 1024) :
    (outsAt0 m c t.val t.isLt).2 (ix2 p q)
      = 0 + ∑ s ∈ Finset.range (t.val % 8 + 1), addend m c (8 * (t.val / 8) + s) (ix2 p q) := by
  have hN : t.val < 128 := lt_of_lt_of_eq t.isLt N_0
  rw [Value.soutsAt0_0_eq m c t]
  exact Pipeline.accAt_add_apply (fun n h => Value.scAt0_0 m c n h (VS0_0.read (Elt Ideal) VS0_0.junk)) (Value.scAt0_0 m c)
    (fun _ => 0) (addend m c) (8 * (t.val / 8)) 7
    (fun h i => by
      obtain ⟨p', q', rfl⟩ : ∃ p' q' : Fin 1024, i = ix2 p' q' := ⟨i 0, i 1, eq_ix2 i⟩
      exact reset_apply m c _ h (by omega) _ p' q')
    (fun n h acc i hlt hle => by
      obtain ⟨p', q', rfl⟩ : ∃ p' q' : Fin 1024, i = ix2 p' q' := ⟨i 0, i 1, eq_ix2 i⟩
      exact step_apply m c n h (by omega) acc p' q')
    (t.val % 8) (by omega) _ (ix2 p q)

/-- At the last point of a run the output tile is the accumulator just left plus the bias block's entry. -/
theorem out_tile (c : Dev nD) (t : Fin cfg0.N) (h1 : t.val % 8 = 7) (p q : Fin 1024)
    (x2 : Vec Ideal S1x1024 .f32) (hx2 : x2 = iblk m c 2 t) :
    (outsAt0 m c t.val t.isLt).1 (ix2 p q)
      = (outsAt0 m c t.val t.isLt).2 (ix2 p q) + x2 (ix2 (0 : Fin 1) q) := by
  have h0 : ¬t.val % 8 = 0 := by omega
  subst hx2
  rw [outsAt0_C m c t h0 h1]
  dsimp only
  exact Payload.out_apply c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (iblk m c 2 t) _ p q

/-- The bias as a row of 4096. -/
def biasRow (c : Dev nD) : (⟨1, ![4096]⟩ : Shape).Idx → EReal := fun i => arrB m c (ix2 (0 : Fin 1) (i 0))

/-- What the result array ends holding. -/
def result (c : Dev nD) : S4096x4096.Idx → EReal := dense (arrX m c) (arrW m c) (biasRow m c)

/-- So the tile written back at the last point of a run is the dense layer at the tile's place in the array. -/
theorem tile_value (c : Dev nD) (t : Fin cfg0.N) (h1 : t.val % 8 = 7) (p q : Fin 1024)
    (a0 : 1024 * (t.val / 32) + p.val < 4096) (a2 : 1024 * (t.val / 8 % 4) + q.val < 4096) :
    (outsAt0 m c t.val t.isLt).1 (ix2 p q)
      = result m c (ix2 ⟨1024 * (t.val / 32) + p.val, a0⟩ ⟨1024 * (t.val / 8 % 4) + q.val, a2⟩) := by
  have hN : t.val < 128 := lt_of_lt_of_eq t.isLt N_0
  rw [out_tile m c t h1 p q (iblk m c 2 t) rfl, acc_apply m c t p q, iblk2_apply m c t q a2, zero_add, h1]
  unfold result dense biasRow
  refine congrArg (· + _) ?_
  rw [← sum_tiles (arrX m c) (arrW m c) (t.val / 32) (t.val / 8 % 4) p.val q.val a0 a2]
  refine Finset.sum_congr rfl fun s hs => ?_
  have hs' : s < 8 := Finset.mem_range.mp hs
  unfold addend
  have e1 : (8 * (t.val / 8) + s) / 32 = t.val / 32 := by omega
  have e2 : (8 * (t.val / 8) + s) % 8 = s := by omega
  have e3 : (8 * (t.val / 8) + s) / 8 % 4 = t.val / 8 % 4 := by omega
  rw [e1, e2, e3]

/-- What a write-back writes is the corresponding block of `result`. -/
theorem flushed_eq (c : Dev nD) (t : Fin cfg0.N) (hf : (cfg0.win 3).flush t = true) :
    (dats m 0 c).flushed 3 t = ((cfg0.win 3).blk t).view.read (Elt Ideal) (result m c) := by
  have hN : t.val < 128 := lt_of_lt_of_eq t.isLt N_0
  have h1 : t.val % 8 = 7 := (flush0_3 t).mp hf
  obtain ⟨-, -, -, -, -, -, e0, e1⟩ := idx_facts t
  rw [Value.flushed3 m c t]
  funext y
  obtain ⟨p, q, rfl⟩ : ∃ p q : Fin 1024, y = ix2 p q := ⟨y 0, y 1, eq_ix2 y⟩
  show (outsAt0 m c t.val t.isLt).1 (ix2 p q) = result m c (((cfg0.win 3).blk t).view.emb (ix2 p q))
  have a0 : 1024 * (t.val / 32) + p.val < 4096 := by omega
  have a2 : 1024 * (t.val / 8 % 4) + q.val < 4096 := by omega
  have h : ((cfg0.win 3).blk t).view.emb (ix2 p q)
      = ix2 ⟨1024 * (t.val / 32) + p.val, a0⟩ ⟨1024 * (t.val / 8 % 4) + q.val, a2⟩ := by
    funext a; apply Fin.ext
    match a with
    | ⟨0, _⟩ => show win0_3.index t (0 : Fin 2) * 1024 + 1 * p.val = 1024 * (t.val / 32) + p.val; rw [e0]; omega
    | ⟨1, _⟩ => show win0_3.index t (1 : Fin 2) * 1024 + 1 * q.val = 1024 * (t.val / 8 % 4) + q.val; rw [e1]; omega
  rw [h]
  exact tile_value m c t h1 p q a0 a2

/-- An index is in point t's output block iff each coordinate is within the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v16).slice (win0_3.rect t)).set ↔ _
  rw [View.set_slice_whole, Rect.mem_set_unit]
  exact Iff.rfl

/-- Every element of the output is in the block written back at the last point of its tile's run. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 128 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  obtain ⟨-, -, -, -, -, -, e0, e1⟩ := idx_facts t
  refine ⟨t, (flush0_3 t).mpr (by rw [ht]; omega), ?_⟩
  rw [mem_blk]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 1024 ≤ (i 1).val ∧ (i 1).val < win0_3.index t (1 : Fin 2) * 1024 + 1024; rw [e1, ht]; omega

/-- The output array after the call is the dense layer of the arrays the call found. -/
theorem final (c : Dev nD) : (dats m 0 c).arrAt 3 cfg0.N = result m c :=
  (dats m 0 c).arrAt_eq_of_cover 3 (result m c) (flushed_eq m c) cover

end Cert.KernelIdeal.Blocks

end
-- ==== Proof.HostSide.lean ====
/-
  What the call finds in its three operands, in terms of the program's arguments.

  Before the call the kernel's program wraps negative indices, pairs (col, row) into an N×2 index array,
  scatter-adds the values into a zero 4096×4096 array, and reshapes the bias to 1×4096; x is passed as it is.
  Operation for operation this is the reference's own scatter stage with its two index vectors exchanged
  (`weights_eq`: the two terms are the same applications to the same arguments), so the weight operand is that
  stage applied to (values, cols, rows); and the reshape [4096] → [1, 4096] reads entry j at (0, j)
  (`biasRow_eq`).  With these the array the kernel leaves, `Spec.dense X W b`, is stated over the arguments
  alone (`result_eq`).
-/
import proofs.«145522_j86208583565592_2_alg».proof.Proof.KernelBlocks
import proofs.«145522_j86208583565592_2_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx Idealize.ShloMosaic.StableHlo

namespace Cert.KernelIdeal.HostSide

open Cert.KernelIdeal Cert.KernelIdeal.Gen Cert.Spec

variable (m : (ℓ : Loc nD τ sig) → Buf (Elt Ideal) ℓ)

/-- The bias operand is the bias vector viewed as one row. -/
theorem bias_eq (c : Dev nD) :
    V m c main_v15 = shapeCast S1x4096 (m ((c : Thread nD τ).loc main_arg2)) shapeCasts_S4096_S1x4096 := by
  dsimp only [Gen.V, Gen.hostOps0]
  after_results
  rfl

set_option maxHeartbeats 2000000 in
/-- The weight operand is the reference's scatter stage of (values, cols, rows): the same wrap of the indices, the
    same pairing, the same scatter-add into zeros, with the two index vectors in the other order. -/
theorem weights_eq (c : Dev nD) :
    V m c main_v14 = Cert.ReferenceIdeal.Read.val_main_v14 (F := Ideal) (m ((c : Thread nD τ).loc main_arg1))
      (m ((c : Thread nD τ).loc main_arg4)) (m ((c : Thread nD τ).loc main_arg3)) := by
  dsimp only [Gen.V, Gen.hostOps0]
  after_results
  rfl

theorem arrX_eq (c : Dev nD) : Blocks.arrX m c = m ((c : Thread nD τ).loc main_arg0) := V_main_arg0 m c

theorem arrW_eq (c : Dev nD) :
    Blocks.arrW m c = Cert.ReferenceIdeal.Read.val_main_v14 (F := Ideal) (m ((c : Thread nD τ).loc main_arg1))
      (m ((c : Thread nD τ).loc main_arg4)) (m ((c : Thread nD τ).loc main_arg3)) := weights_eq m c

theorem arrB_eq (c : Dev nD) :
    Blocks.arrB m c = shapeCast S1x4096 (m ((c : Thread nD τ).loc main_arg2)) shapeCasts_S4096_S1x4096 := bias_eq m c

/-- Entry j of the bias row is entry j of the bias vector: (0, j) of [1, 4096] and j of [4096] are the same
    row-major position. -/
theorem biasRow_eq (c : Dev nD) : Blocks.biasRow m c = m ((c : Thread nD τ).loc main_arg2) := by
  funext i
  obtain ⟨j, rfl⟩ : ∃ j : Fin 4096, i = ix1 j := ⟨i 0, eq_ix1 i⟩
  unfold Blocks.biasRow
  rw [arrB_eq]
  refine shapeCast_apply _ shapeCasts_S4096_S1x4096 (ix2 (0 : Fin 1) j) (ix1 j) ?_
  rw [Shape.rowMajor_val_one, Shape.rowMajor_val_two]
  show j.val = 0 * 4096 + j.val
  omega

/-- The array the kernel leaves, over the program's arguments. -/
theorem result_eq (c : Dev nD) :
    Blocks.result m c = dense (m ((c : Thread nD τ).loc main_arg0))
      (Cert.ReferenceIdeal.Read.val_main_v14 (F := Ideal) (m ((c : Thread nD τ).loc main_arg1))
        (m ((c : Thread nD τ).loc main_arg4)) (m ((c : Thread nD τ).loc main_arg3)))
      (m ((c : Thread nD τ).loc main_arg2)) := by
  unfold Blocks.result
  rw [arrX_eq, arrW_eq, biasRow_eq]

end Cert.KernelIdeal.HostSide

end
-- ==== Proof.LibScatterPairs.lean ====
/-
  A scatter-add of N scalar updates into an A×B array, each update aimed by a PAIR of signed integers.

  This is what `zeros((A, B)).at[r, c].add(v)` means for index vectors `r`, `c` and a value vector `v` of one
  length N: the scatter's index array is N×2, row n holding the two coordinates of update n; both array axes
  are "inserted window" axes, so an update is a single scalar and lands on the single element whose
  coordinates are that row, read as signed integers; an update whose row points outside the array is dropped.
  Over the extended reals the result at (a, b) is therefore

      x(a, b) + Σ { v(n) : row n of the index array is (a, b) },

  a sum over a set of updates, with no order in it (`hostScatterAdd_apply`).  Two consequences used by a
  certificate whose two sides build a matrix and its transpose from the same triples:

    * exchanging the two columns of the index array and the two extents of the operand transposes the result
      (`hostScatterAdd_swap`): the set of updates landing on (b, a) of the one is the set landing on (a, b) of
      the other.

  Nothing here mentions a program: the dimension numbers are the record `pairDims A B N`, which a printed
  program's own record equals by `rfl`.
-/
import Idealize.ShloMosaic.PureOps.Ideal
import Idealize.ShloMosaic.Lib.ValueIdx

noncomputable section

open scoped BigOperators
open Idealize.ShloMosaic Idealize.ShloMosaic.ValueIdx

namespace Cert.Lib.ScatterPairs

/-- The dimension numbers of a scatter of N scalars into an A×B operand through an N×2 index array: no update
    window axes, both operand axes inserted, index component k names operand axis k, and the index vector runs
    along axis 1 of the index array. -/
abbrev pairDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ where
  updateWindowDims := []
  insertedWindowDims := [0, 1]
  scatterDimsToOperandDims := [0, 1]
  indexVectorDim := 1
  wf := wf

variable {A B N : Nat} (wf : ScatterDims.WF ⟨2, ![A, B]⟩ ⟨2, ![N, 2]⟩ ⟨1, ![N]⟩ [] [0, 1] [0, 1] 1)

/-- Update `j` reads component 0 of its target at (j, 0) of the index array … -/
theorem siIdx0 (j : (⟨1, ![N]⟩ : Shape).Idx) (h) :
    (pairDims A B N wf).siIdx j ⟨0, h⟩ = ix2 (j 0) (0 : Fin 2) := by
  funext b
  match b with
  | ⟨0, _⟩ => rfl
  | ⟨1, _⟩ => rfl

/-- … and component 1 at (j, 1). -/
theorem siIdx1 (j : (⟨1, ![N]⟩ : Shape).Idx) (h) :
    (pairDims A B N wf).siIdx j ⟨1, h⟩ = ix2 (j 0) (1 : Fin 2) := by
  funext b
  match b with
  | ⟨0, _⟩ => rfl
  | ⟨1, _⟩ => rfl

/-- The target's row is the signed reading of entry (j, 0) … -/
theorem start0 {w : Nat} (j : (⟨1, ![N]⟩ : Shape).Idx) (idx : IVec ⟨2, ![N, 2]⟩ w) :
    (pairDims A B N wf).start j idx 0 = (idx (ix2 (j 0) (0 : Fin 2))).toInt := by
  unfold ScatterDims.start
  rw [dif_pos (show (0 : Fin 2) ∈ ([0, 1] : List (Fin 2)) from by decide)]
  exact congrArg (fun k => (idx k).toInt) (siIdx0 wf j _)

/-- … and its column the signed reading of entry (j, 1). -/
theorem start1 {w : Nat} (j : (⟨1, ![N]⟩ : Shape).Idx) (idx : IVec ⟨2, ![N, 2]⟩ w) :
    (pairDims A B N wf).start j idx 1 = (idx (ix2 (j 0) (1 : Fin 2))).toInt := by
  unfold ScatterDims.start
  rw [dif_pos (show (1 : Fin 2) ∈ ([0, 1] : List (Fin 2)) from by decide)]
  exact congrArg (fun k => (idx k).toInt) (siIdx1 wf j _)

/-- An update is one scalar: there is no coordinate inside a window to add. -/
theorem window_zero (j : (⟨1, ![N]⟩ : Shape).Idx) (a : Fin 2) :
    (pairDims A B N wf).window j a = 0 := by
  have h : a ∉ (pairDims A B N wf).sKept := by
    show a ∉ ([] : List (Fin 2))
    exact List.not_mem_nil
  unfold ScatterDims.window
  exact dif_neg h

/-- Update `j` lands on element (a, b) exactly when row `j` of the index array reads (a, b) as signed integers:
    a row pointing outside the array lands nowhere. -/
theorem resultIdx?_eq_some_iff {w : Nat} (j : (⟨1, ![N]⟩ : Shape).Idx) (idx : IVec ⟨2, ![N, 2]⟩ w)
    (a : Fin A) (b : Fin B) :
    (pairDims A B N wf).resultIdx? j idx = some (ix2 a b)
      ↔ (idx (ix2 (j 0) (0 : Fin 2))).toInt = (a.val : Int) ∧ (idx (ix2 (j 0) (1 : Fin 2))).toInt = (b.val : Int) := by
  unfold ScatterDims.resultIdx?
  have hs0 : (pairDims A B N wf).start j idx 0 + ((pairDims A B N wf).window j 0 : Int)
      = (idx (ix2 (j 0) (0 : Fin 2))).toInt := by
    rw [window_zero wf j 0, Nat.cast_zero, add_zero]; exact start0 wf j idx
  have hs1 : (pairDims A B N wf).start j idx 1 + ((pairDims A B N wf).window j 1 : Int)
      = (idx (ix2 (j 0) (1 : Fin 2))).toInt := by
    rw [window_zero wf j 1, Nat.cast_zero, add_zero]; exact start1 wf j idx
  split
  · rename_i h
    rw [Option.some_inj]
    have h0 := h 0
    have h1 := h 1
    rw [hs0] at h0
    rw [hs1] at h1
    constructor
    · intro e
      have e0 : (((pairDims A B N wf).start j idx 0 + ((pairDims A B N wf).window j 0 : Int)).toNat : Int) = (a.val : Int) :=
        congrArg (fun f => ((f 0 : Fin A).val : Int)) e
      have e1 : (((pairDims A B N wf).start j idx 1 + ((pairDims A B N wf).window j 1 : Int)).toNat : Int) = (b.val : Int) :=
        congrArg (fun f => ((f 1 : Fin B).val : Int)) e
      rw [hs0, Int.toNat_of_nonneg h0.1] at e0
      rw [hs1, Int.toNat_of_nonneg h1.1] at e1
      exact ⟨e0, e1⟩
    · intro ⟨e0, e1⟩
      funext c
      apply Fin.ext
      match c with
      | ⟨0, _⟩ =>
        show ((pairDims A B N wf).start j idx 0 + ((pairDims A B N wf).window j 0 : Int)).toNat = a.val
        rw [hs0, e0, Int.toNat_natCast]
      | ⟨1, _⟩ =>
        show ((pairDims A B N wf).start j idx 1 + ((pairDims A B N wf).window j 1 : Int)).toNat = b.val
        rw [hs1, e1, Int.toNat_natCast]
  · rename_i h
    constructor
    · intro e; cases e
    · intro ⟨e0, e1⟩
      exfalso
      apply h
      intro c
      match c with
      | ⟨0, _⟩ =>
        show 0 ≤ (pairDims A B N wf).start j idx 0 + ((pairDims A B N wf).window j 0 : Int)
          ∧ (pairDims A B N wf).start j idx 0 + ((pairDims A B N wf).window j 0 : Int) < (A : Int)
        rw [hs0, e0]
        exact ⟨Int.natCast_nonneg _, by exact_mod_cast a.isLt⟩
      | ⟨1, _⟩ =>
        show 0 ≤ (pairDims A B N wf).start j idx 1 + ((pairDims A B N wf).window j 1 : Int)
          ∧ (pairDims A B N wf).start j idx 1 + ((pairDims A B N wf).window j 1 : Int) < (B : Int)
        rw [hs1, e1]
        exact ⟨Int.natCast_nonneg _, by exact_mod_cast b.isLt⟩

/-- Over the extended reals the scatter-add at (a, b) is the operand there plus the sum of the updates whose
    index row reads (a, b). -/
theorem hostScatterAdd_apply {w : Nat} (x : (⟨2, ![A, B]⟩ : Shape).Idx → EReal) (idx : IVec ⟨2, ![N, 2]⟩ w)
    (upd : (⟨1, ![N]⟩ : Shape).Idx → EReal) (a : Fin A) (b : Fin B) :
    Ideal.hostScatterAdd (pairDims A B N wf) x idx upd (ix2 a b)
      = x (ix2 a b) + ∑ j ∈ Finset.univ.filter (fun j : (⟨1, ![N]⟩ : Shape).Idx =>
          (idx (ix2 (j 0) (0 : Fin 2))).toInt = (a.val : Int) ∧ (idx (ix2 (j 0) (1 : Fin 2))).toInt = (b.val : Int)), upd j := by
  unfold Ideal.hostScatterAdd
  congr 1
  refine Finset.sum_congr ?_ fun _ _ => rfl
  ext j
  simp only [Finset.mem_filter, Finset.mem_univ, true_and]
  exact resultIdx?_eq_some_iff wf j idx a b

/-- Scattering the same updates with the two index columns exchanged, into an operand that is the transpose at
    the element in question, gives the transposed element: (b, a) of the one is (a, b) of the other. -/
theorem hostScatterAdd_swap {w : Nat}
    (wf' : ScatterDims.WF ⟨2, ![B, A]⟩ ⟨2, ![N, 2]⟩ ⟨1, ![N]⟩ [] [0, 1] [0, 1] 1)
    (x : (⟨2, ![A, B]⟩ : Shape).Idx → EReal) (x' : (⟨2, ![B, A]⟩ : Shape).Idx → EReal)
    (idx idx' : IVec ⟨2, ![N, 2]⟩ w) (upd : (⟨1, ![N]⟩ : Shape).Idx → EReal)
    (hidx0 : ∀ n : Fin N, idx' (ix2 n (0 : Fin 2)) = idx (ix2 n (1 : Fin 2)))
    (hidx1 : ∀ n : Fin N, idx' (ix2 n (1 : Fin 2)) = idx (ix2 n (0 : Fin 2)))
    (a : Fin A) (b : Fin B) (hx : x' (ix2 b a) = x (ix2 a b)) :
    Ideal.hostScatterAdd (pairDims B A N wf') x' idx' upd (ix2 b a)
      = Ideal.hostScatterAdd (pairDims A B N wf) x idx upd (ix2 a b) := by
  rw [hostScatterAdd_apply, hostScatterAdd_apply, hx]
  congr 1
  refine Finset.sum_congr ?_ fun _ _ => rfl
  ext j
  simp only [Finset.mem_filter, Finset.mem_univ, true_and]
  have e0 : (idx' (ix2 (j 0) (0 : Fin 2))).toInt = (idx (ix2 (j 0) (1 : Fin 2))).toInt :=
    congrArg BitVec.toInt (hidx0 (j 0))
  have e1 : (idx' (ix2 (j 0) (1 : Fin 2))).toInt = (idx (ix2 (j 0) (0 : Fin 2))).toInt :=
    congrArg BitVec.toInt (hidx1 (j 0))
  constructor
  · intro ⟨p, q⟩; exact ⟨e1.symm.trans q, e0.symm.trans p⟩
  · intro ⟨p, q⟩; exact ⟨e0.trans q, e1.trans p⟩

/-- The same for a program's own scatter at the ideal instance, whose dimension numbers are these records: the
    form a certificate cites, so that the program's scatter is never opened at its full size. -/
theorem scatterAdd_swap {A B N w : Nat}
    (wf : ScatterDims.WF ⟨2, ![A, B]⟩ ⟨2, ![N, 2]⟩ ⟨1, ![N]⟩ [] [0, 1] [0, 1] 1)
    (wf' : ScatterDims.WF ⟨2, ![B, A]⟩ ⟨2, ![N, 2]⟩ ⟨1, ![N]⟩ [] [0, 1] [0, 1] 1)
    (d : ScatterDims ⟨2, ![A, B]⟩ ⟨2, ![N, 2]⟩ ⟨1, ![N]⟩) (d' : ScatterDims ⟨2, ![B, A]⟩ ⟨2, ![N, 2]⟩ ⟨1, ![N]⟩)
    (hd : d = pairDims A B N wf) (hd' : d' = pairDims B A N wf')
    (x : (⟨2, ![A, B]⟩ : Shape).Idx → EReal) (x' : (⟨2, ![B, A]⟩ : Shape).Idx → EReal)
    (idx idx' : IVec ⟨2, ![N, 2]⟩ w) (upd : (⟨1, ![N]⟩ : Shape).Idx → EReal)
    (hidx0 : ∀ n : Fin N, idx' (ix2 n (0 : Fin 2)) = idx (ix2 n (1 : Fin 2)))
    (hidx1 : ∀ n : Fin N, idx' (ix2 n (1 : Fin 2)) = idx (ix2 n (0 : Fin 2)))
    (a : Fin A) (b : Fin B) (hx : x' (ix2 b a) = x (ix2 a b)) :
    Host.scatterAdd (F := Ideal) (φ := .f32) d' x' idx' upd (ix2 b a)
      = Host.scatterAdd (F := Ideal) (φ := .f32) d x idx upd (ix2 a b) := by
  subst hd hd'
  exact hostScatterAdd_swap wf wf' x x' idx idx' upd hidx0 hidx1 a b hx

end Cert.Lib.ScatterPairs

end
-- ==== Proof.RefValue.lean ====
/-
  The reference computes the dense layer of the weight matrix in the kernel's layout.

  The reference scatters the triples (row r, column c, value v) into W[out, in] — W(j, k) = Σ { v(n) : r(n) = j,
  c(n) = k } after jnp's wrap of negative indices, out-of-range triples dropped — transposes, multiplies and adds
  the bias:  Y(i, j) = Σ_k X(i, k) · W(j, k) + b(j).

  The kernel's program scatters the same triples with the two index columns exchanged, into Wᵀ[in, out].  Written
  with the reference's own stages, that array is the scatter stage with its two index arguments exchanged, and
  the two scatters are transposes of each other element by element (`weights_swap`): the set of triples that land
  on (k, j) of the one is the set that land on (j, k) of the other, and the sum over a set has no order.  Hence
  the reference's result is `dense X Wᵀ b` (`ref_eq_dense`).
-/
import proofs.«145522_j86208583565592_2_alg».proof.Proof.Gen.ReferenceIdeal.Read
import proofs.«145522_j86208583565592_2_alg».proof.Proof.Spec
import proofs.«145522_j86208583565592_2_alg».proof.Proof.LibScatterPairs
import Idealize.ShloMosaic.Lib.Pipeline.Value
import Idealize.ShloMosaic.Lib.ValueIdx

noncomputable section

open scoped BigOperators
open Idealize.ShloMosaic Idealize.ShloMosaic.ValueIdx

namespace Cert.ReferenceIdeal.RefValue

open Cert.ReferenceIdeal Cert.ReferenceIdeal.Gen Cert.ReferenceIdeal.Read Cert.Spec Cert.Lib.ScatterPairs

/-- A vector of 1,600,000 integer indices. -/
abbrev IdxVec := (⟨S1600000, .i32⟩ : BufTy).Contents (Elt Ideal)

/-- Column 0 of the N×2 index array is the wrapped first index vector … -/
theorem v13_left (x3 x4 : IdxVec) (n : Fin 1600000) :
    val_main_v13 (F := Ideal) x3 x4 (ix2 n (0 : Fin 2)) = val_main_v5 (F := Ideal) x3 (ix1 n) := by
  unfold val_main_v13
  rw [concatenate_pair_apply_left (t := S1600000x2) (s₁ := S1600000x1) (s₂ := S1600000x1) (1 : Fin 2) _ _ concatenates_S1600000x1_S1600000x1_S1600000x2_d1 (ix2 n (0 : Fin 2)) rfl
    (ix2 n (0 : Fin 1)) (fun b => match b with | ⟨0, _⟩ => rfl | ⟨1, _⟩ => rfl)]
  rw [val_main_v11_apply]
  exact congrArg (val_main_v5 (F := Ideal) x3) (funext fun a => match a with | ⟨0, _⟩ => rfl)

/-- … and column 1 the wrapped second one. -/
theorem v13_right (x3 x4 : IdxVec) (n : Fin 1600000) :
    val_main_v13 (F := Ideal) x3 x4 (ix2 n (1 : Fin 2)) = val_main_v10 (F := Ideal) x4 (ix1 n) := by
  unfold val_main_v13
  rw [concatenate_pair_apply_right (t := S1600000x2) (s₁ := S1600000x1) (s₂ := S1600000x1) (1 : Fin 2) _ _ concatenates_S1600000x1_S1600000x1_S1600000x2_d1 (ix2 n (1 : Fin 2)) rfl rfl
    (ix2 n (0 : Fin 1)) (fun b => match b with | ⟨0, _⟩ => fun _ => rfl | ⟨1, _⟩ => fun h => absurd rfl h) rfl]
  rw [val_main_v12_apply]
  exact congrArg (val_main_v10 (F := Ideal) x4) (funext fun a => match a with | ⟨0, _⟩ => rfl)

/-- The wrap of negative indices ("below zero, add 4096") is one function, whichever index vector it is applied to. -/
theorem wrap_eq (x : IdxVec) : val_main_v5 (F := Ideal) x = val_main_v10 (F := Ideal) x := rfl

/-- The program's scatter record is the pair-scatter's. -/
theorem dims_eq : scatter_S4096x4096_S1600000x2_S1600000_n_01_01_1 = pairDims 4096 4096 1600000 scatter_S4096x4096_S1600000x2_S1600000_n_01_01_1_wf := rfl

/-- Exchanging the two index vectors transposes the scattered matrix. -/
theorem weights_swap (x1 : (⟨S1600000, .f32⟩ : BufTy).Contents (Elt Ideal)) (x3 x4 : IdxVec) (k j : Fin 4096) :
    val_main_v14 (F := Ideal) x1 x4 x3 (ix2 k j) = val_main_v14 (F := Ideal) x1 x3 x4 (ix2 j k) :=
  scatterAdd_swap scatter_S4096x4096_S1600000x2_S1600000_n_01_01_1_wf scatter_S4096x4096_S1600000x2_S1600000_n_01_01_1_wf scatter_S4096x4096_S1600000x2_S1600000_n_01_01_1 scatter_S4096x4096_S1600000x2_S1600000_n_01_01_1 dims_eq dims_eq (val_main_v0 (F := Ideal)) (val_main_v0 (F := Ideal))
    (val_main_v13 (F := Ideal) x3 x4) (val_main_v13 (F := Ideal) x4 x3) x1
    (fun n => by rw [v13_left, v13_right, wrap_eq])
    (fun n => by rw [v13_left, v13_right, wrap_eq])
    j k ((val_main_v0_apply (F := Ideal) _).trans (val_main_v0_apply (F := Ideal) _).symm)

/-- The reference's result is the dense layer of x, the weight matrix scattered in [in, out] layout, and the bias. -/
theorem ref_eq_dense (x0 : (⟨S4096x4096, .f32⟩ : BufTy).Contents (Elt Ideal)) (x1 : (⟨S1600000, .f32⟩ : BufTy).Contents (Elt Ideal))
    (x2 : (⟨S4096, .f32⟩ : BufTy).Contents (Elt Ideal)) (x3 x4 : IdxVec) :
    val_main_v19 (F := Ideal) x0 x1 x2 x3 x4 = dense x0 (val_main_v14 (F := Ideal) x1 x4 x3) x2 := by
  funext i
  obtain ⟨a, b, rfl⟩ : ∃ a b : Fin 4096, i = ix2 a b := ⟨i 0, i 1, eq_ix2 i⟩
  rw [val_main_v19_apply, val_main_v16_apply, val_main_v18_apply, val_main_v17_apply]
  unfold dense
  show (∑ k : Fin 4096, x0 (lidx_main_v16 (ix2 a b) k) * val_main_v15 (F := Ideal) x1 x3 x4 (ridx_main_v16 (ix2 a b) k))
      + x2 (idx_main_v17 (idx_main_v18 (ix2 a b)))
    = (∑ k : Fin 4096, x0 (ix2 a k) * val_main_v14 (F := Ideal) x1 x4 x3 (ix2 k b)) + x2 (ix1 b)
  have hb : idx_main_v17 (idx_main_v18 (ix2 a b)) = ix1 b := funext fun d => match d with | ⟨0, _⟩ => rfl
  rw [hb]
  refine congrArg (· + x2 (ix1 b)) (Finset.sum_congr rfl fun k _ => ?_)
  have hl : lidx_main_v16 (ix2 a b) k = ix2 a k := funext fun d => match d with | ⟨0, _⟩ => rfl | ⟨1, _⟩ => rfl
  have hr : idx_main_v15 (ridx_main_v16 (ix2 a b) k) = ix2 b k := funext fun d => match d with | ⟨0, _⟩ => rfl | ⟨1, _⟩ => rfl
  rw [hl, val_main_v15_apply, hr, weights_swap]

end Cert.ReferenceIdeal.RefValue

end
-- ==== Proof.lean ====
/-
  SparseLinear: a COO scatter into a dense weight matrix, a matmul and a bias, tiled on a 4 × 4 × 8 grid,
  against jnp's `x @ W.T + bias`.

  Both programs first build a dense 4096×4096 matrix from 1,600,000 triples (row, col, value) by scatter-add
  (duplicates sum; negative indices wrap; out-of-range triples are dropped): the reference builds W[out, in] and
  transposes it, the kernel's program builds Wᵀ[in, out] directly by exchanging the two index vectors.  Over the
  extended reals a scatter-add is a sum over the SET of triples landing on an element, so the two matrices are
  transposes of each other (Proof/RefValue.lean, over Proof/LibScatterPairs.lean).

  The kernel then computes Y = X · Wᵀ + b tile by tile, accumulating the contraction in eight slabs of 512 in a
  scratch accumulator and adding the bias after the last slab; the roundings to bf16 before the matrix unit are
  the identity at the ideal instance.  The eight slab sums are the whole inner product because addition of
  extended reals is commutative and associative (Proof/Spec.lean, Proof/KernelBlocks.lean); no finiteness of the
  inputs is used.  The reference's `dot_general` is that inner product at once.  Hence both end with
  `Spec.dense X Wᵀ b`.

  The three frames: the two kernels' are the generated frame certificates; the reference's is its generated run
  with the result dropped.  The ideal pass rewrote nothing, so `preserves` is trivial.
-/
import proofs.«145522_j86208583565592_2_alg».proof.Defs
import proofs.«145522_j86208583565592_2_alg».proof.Proof.Gen.Kernel
import proofs.«145522_j86208583565592_2_alg».proof.Proof.Gen.Kernel.Skeleton
import proofs.«145522_j86208583565592_2_alg».proof.Proof.Gen.Kernel.Launch
import proofs.«145522_j86208583565592_2_alg».proof.Proof.Gen.Kernel.Points
import proofs.«145522_j86208583565592_2_alg».proof.Proof.Gen.Kernel.Frame
import proofs.«145522_j86208583565592_2_alg».proof.Proof.Gen.KernelIdeal
import proofs.«145522_j86208583565592_2_alg».proof.Proof.Gen.KernelIdeal.Skeleton
import proofs.«145522_j86208583565592_2_alg».proof.Proof.Gen.KernelIdeal.Launch
import proofs.«145522_j86208583565592_2_alg».proof.Proof.Gen.KernelIdeal.Points
import proofs.«145522_j86208583565592_2_alg».proof.Proof.Gen.KernelIdeal.Frame
import proofs.«145522_j86208583565592_2_alg».proof.Proof.Gen.ReferenceIdeal
import proofs.«145522_j86208583565592_2_alg».proof.Proof.Gen.Pre_finite_inputs
import proofs.«145522_j86208583565592_2_alg».proof.Proof.Gen.KernelIdeal.Value
import proofs.«145522_j86208583565592_2_alg».proof.Proof.Gen.ReferenceIdeal.Run
import proofs.«145522_j86208583565592_2_alg».proof.Proof.Gen.ReferenceIdeal.Read
import proofs.«145522_j86208583565592_2_alg».proof.Proof.HostSide
import proofs.«145522_j86208583565592_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the dense layer of x, the scattered weight matrix in [in, out] layout and the bias, of
    arguments that agree. -/
theorem algebraic : Cert.algebraic_KernelIdeal_ReferenceIdeal := by
  intro m ρ m' ρ' _ hagree
  refine ⟨fun c => Cert.KernelIdeal.Blocks.result m c, ?_, ?_⟩
  · exact (θ_run Cert.KernelIdeal.defs _ _).mono
      (fun r h c => ⟨(h c).1.trans (Cert.KernelIdeal.Blocks.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.ref_eq_dense,
      (hagree c).1, (hagree c).2.1, (hagree c).2.2.1, (hagree c).2.2.2.1, (hagree c).2.2.2.2]
    exact (Cert.KernelIdeal.HostSide.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
